-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S48x48 : Shape := ⟨2, ![48, 48]⟩
abbrev S48 : Shape := ⟨1, ![48]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S48x48 : S_.BroadcastsInDim S48x48 (![] : Fin 0 → Fin S48x48.rank)
  reducesTo_S48x48_S_d0_1 : S48x48.ReducesTo [0, 1] S_
  bcast_S_S48 : S_.BroadcastsInDim S48 (![] : Fin 0 → Fin S48.rank)
  reducesTo_S48_S_d0 : S48.ReducesTo [0] S_

variable [Facts]

def fn_part1 {F : FTy → Type} [FloatOps F] (main_arg5 : FVec F S48x48 .f32) (main_arg6 : FVec F S48x48 .f32) (main_arg7 : FVec F S48 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S48x48 .f32 := Host.absf main_arg5
  let main_cst_6 : FVec F S_ .f32 := constant S_ .f32 0x7F800000#32
  let main_v20 : FVec F S48x48 .f32 := broadcastInDim S48x48 ![] bcast_S_S48x48 main_cst_6
  let main_v21 : IVec S48x48 1 := cmpf .olt main_v19 main_v20
  let main_c_7 : IVec S_ 1 := constantI S_ 1 1#1
  let main_v22 : IVec S_ 1 := (fun x v => Host.reduce IntOp.andi x v reducesTo_S48x48_S_d0_1 h_S_) main_v21 main_c_7
  let main_v23 : IVec S_ 1 := andi main_v18 main_v22
  let main_v24 : FVec F S48x48 .f32 := Host.absf main_arg6
  let main_cst_8 : FVec F S_ .f32 := constant S_ .f32 0x7F800000#32
  let main_v25 : FVec F S48x48 .f32 := broadcastInDim S48x48 ![] bcast_S_S48x48 main_cst_8
  let main_v26 : IVec S48x48 1 := cmpf .olt main_v24 main_v25
  let main_c_9 : IVec S_ 1 := constantI S_ 1 1#1
  let main_v27 : IVec S_ 1 := (fun x v => Host.reduce IntOp.andi x v reducesTo_S48x48_S_d0_1 h_S_) main_v26 main_c_9
  let main_v28 : IVec S_ 1 := andi main_v23 main_v27
  let main_v29 : FVec F S48 .f32 := Host.absf main_arg7
  let main_cst_10 : FVec F S_ .f32 := constant S_ .f32 0x7F800000#32
  let main_v30 : FVec F S48 .f32 := broadcastInDim S48 ![] bcast_S_S48 main_cst_10
  let main_v31 : IVec S48 1 := cmpf .olt main_v29 main_v30
  let main_c_11 : IVec S_ 1 := constantI S_ 1 1#1
  let main_v32 : IVec S_ 1 := (fun x v => Host.reduce IntOp.andi x v reducesTo_S48_S_d0 h_S_) main_v31 main_c_11
  let main_v33 : IVec S_ 1 := andi main_v28 main_v32
  main_v33

def fn {F : FTy → Type} [FloatOps F] (main_arg0 : FVec F S100000x48 .f32) (main_arg1 : IVec S2x1600000 32) (main_arg2 : FVec F S48x48 .f32) (main_arg3 : FVec F S48x48 .f32) (main_arg4 : FVec F S48 .f32) (main_arg5 : FVec F S48x48 .f32) (main_arg6 : FVec F S48x48 .f32) (main_arg7 : FVec F S48 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S48x48 .f32 := Host.absf main_arg2
  let main_cst_0 : FVec F S_ .f32 := constant S_ .f32 0x7F800000#32
  let main_v5 : FVec F S48x48 .f32 := broadcastInDim S48x48 ![] bcast_S_S48x48 main_cst_0
  let main_v6 : IVec S48x48 1 := cmpf .olt main_v4 main_v5
  let main_c_1 : IVec S_ 1 := constantI S_ 1 1#1
  let main_v7 : IVec S_ 1 := (fun x v => Host.reduce IntOp.andi x v reducesTo_S48x48_S_d0_1 h_S_) main_v6 main_c_1
  let main_v8 : IVec S_ 1 := andi main_v3 main_v7
  let main_v9 : FVec F S48x48 .f32 := Host.absf main_arg3
  let main_cst_2 : FVec F S_ .f32 := constant S_ .f32 0x7F800000#32
  let main_v10 : FVec F S48x48 .f32 := broadcastInDim S48x48 ![] bcast_S_S48x48 main_cst_2
  let main_v11 : IVec S48x48 1 := cmpf .olt main_v9 main_v10
  let main_c_3 : IVec S_ 1 := constantI S_ 1 1#1
  let main_v12 : IVec S_ 1 := (fun x v => Host.reduce IntOp.andi x v reducesTo_S48x48_S_d0_1 h_S_) main_v11 main_c_3
  let main_v13 : IVec S_ 1 := andi main_v8 main_v12
  let main_v14 : FVec F S48 .f32 := Host.absf main_arg4
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg5 main_arg6 main_arg7 main_v13 main_v16
-- ==== Kernel.lean ====
abbrev S100000x48 : Shape := ⟨2, ![100000, 48]⟩
abbrev S2x1600000 : Shape := ⟨2, ![2, 1600000]⟩
abbrev S48x48 : Shape := ⟨2, ![48, 48]⟩
abbrev S48 : Shape := ⟨1, ![48]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S1x48 : Shape := ⟨2, ![1, 48]⟩
abbrev S5000x48 : Shape := ⟨2, ![5000, 48]⟩

abbrev nBuf : Space → Nat
  | .hbm => 42
  | .vmem => 18
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x48, .f32⟩
  | .hbm, ⟨3, _⟩ => ⟨S48x48, .f32⟩
  | .hbm, ⟨4, _⟩ => ⟨S48, .f32⟩
  | .hbm, ⟨5, _⟩ => ⟨S48x48, .f32⟩
  | .hbm, ⟨6, _⟩ => ⟨S48x48, .f32⟩
  | .hbm, ⟨7, _⟩ => ⟨S48, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x48, .f32⟩
  | .hbm, ⟨21, _⟩ => ⟨S_, .f32⟩
  | .hbm, ⟨22, _⟩ => ⟨S100000x48, .f32⟩
  | .hbm, ⟨23, _⟩ => ⟨S1600000x1, .i32⟩
  | .hbm, ⟨24, _⟩ => ⟨S100000x48, .f32⟩
  | .hbm, ⟨25, _⟩ => ⟨S1x48, .f32⟩
  | .hbm, ⟨26, _⟩ => ⟨S100000x48, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x48, .f32⟩
  | .hbm, ⟨36, _⟩ => ⟨S_, .f32⟩
  | .hbm, ⟨37, _⟩ => ⟨S100000x48, .f32⟩
  | .hbm, ⟨38, _⟩ => ⟨S1600000x1, .i32⟩
  | .hbm, ⟨39, _⟩ => ⟨S100000x48, .f32⟩
  | .hbm, ⟨40, _⟩ => ⟨S1x48, .f32⟩
  | .hbm, ⟨41, _⟩ => ⟨S100000x48, .f32⟩
  | .local _ .vmem, ⟨0, _⟩ => ⟨S5000x48, .f32⟩
  | .local _ .vmem, ⟨1, _⟩ => ⟨S5000x48, .f32⟩
  | .local _ .vmem, ⟨2, _⟩ => ⟨S5000x48, .f32⟩
  | .local _ .vmem, ⟨3, _⟩ => ⟨S5000x48, .f32⟩
  | .local _ .vmem, ⟨4, _⟩ => ⟨S48x48, .f32⟩
  | .local _ .vmem, ⟨5, _⟩ => ⟨S48x48, .f32⟩
  | .local _ .vmem, ⟨6, _⟩ => ⟨S1x48, .f32⟩
  | .local _ .vmem, ⟨7, _⟩ => ⟨S5000x48, .f32⟩
  | .local _ .vmem, ⟨8, _⟩ => ⟨S5000x48, .f32⟩
  | .local _ .vmem, ⟨9, _⟩ => ⟨S5000x48, .f32⟩
  | .local _ .vmem, ⟨10, _⟩ => ⟨S5000x48, .f32⟩
  | .local _ .vmem, ⟨11, _⟩ => ⟨S5000x48, .f32⟩
  | .local _ .vmem, ⟨12, _⟩ => ⟨S5000x48, .f32⟩
  | .local _ .vmem, ⟨13, _⟩ => ⟨S48x48, .f32⟩
  | .local _ .vmem, ⟨14, _⟩ => ⟨S48x48, .f32⟩
  | .local _ .vmem, ⟨15, _⟩ => ⟨S1x48, .f32⟩
  | .local _ .vmem, ⟨16, _⟩ => ⟨S5000x48, .f32⟩
  | .local _ .vmem, ⟨17, _⟩ => ⟨S5000x48, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S48x48 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S48x48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x48 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x48 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  shapeCasts_S48_S1x48 : S48.ShapeCasts S1x48
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  inb_S48x48_S48x48_0_0 : ∀ a, (![0, 0] : Fin 2 → Nat) a + S48x48.size a ≤ S48x48.size a
  h_S48x48 : 0 < S48x48.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S5000x48 : S1x48.Broadcasts S5000x48
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S5000x48_S48x48_S5000x48_1_0_0_1_n_n_wf : DotDims.WF S5000x48 S48x48 S5000x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S100000x48.size a
  hwx0_0 : ∀ i : grid0.Coords, EltTy.bits .f32 = 32 ∨ (Rect.block (s := S100000x48) S5000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x48.size a ≤ S100000x48.size a
  hwx0_1 : ∀ i : grid0.Coords, EltTy.bits .f32 = 32 ∨ (Rect.block (s := S100000x48) S5000x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x48.size a ≤ S48x48.size a
  hwx0_2 : ∀ i : grid0.Coords, EltTy.bits .f32 = 32 ∨ (Rect.block (s := S48x48) S48x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x48.size a ≤ S48x48.size a
  hwx0_3 : ∀ i : grid0.Coords, EltTy.bits .f32 = 32 ∨ (Rect.block (s := S48x48) S48x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x48.size a ≤ S1x48.size a
  hwx0_4 : ∀ i : grid0.Coords, EltTy.bits .f32 = 32 ∨ (Rect.block (s := S1x48) S1x48.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x48.size a ≤ S100000x48.size a
  hwx0_5 : ∀ i : grid0.Coords, EltTy.bits .f32 = 32 ∨ (Rect.block (s := S100000x48) S5000x48.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x48.size a ≤ S100000x48.size a
  hwx1_0 : ∀ i : grid1.Coords, EltTy.bits .f32 = 32 ∨ (Rect.block (s := S100000x48) S5000x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x48.size a ≤ S100000x48.size a
  hwx1_1 : ∀ i : grid1.Coords, EltTy.bits .f32 = 32 ∨ (Rect.block (s := S100000x48) S5000x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S48x48.size a ≤ S48x48.size a
  hwx1_2 : ∀ i : grid1.Coords, EltTy.bits .f32 = 32 ∨ (Rect.block (s := S48x48) S48x48.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S48x48.size a ≤ S48x48.size a
  hwx1_3 : ∀ i : grid1.Coords, EltTy.bits .f32 = 32 ∨ (Rect.block (s := S48x48) S48x48.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x48.size a ≤ S1x48.size a
  hwx1_4 : ∀ i : grid1.Coords, EltTy.bits .f32 = 32 ∨ (Rect.block (s := S1x48) S1x48.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x48.size a ≤ S100000x48.size a
  hwx1_5 : ∀ i : grid1.Coords, EltTy.bits .f32 = 32 ∨ (Rect.block (s := S100000x48) S5000x48.size (cc1_transform_5 i) (hinb1_5 i)).WholeWords (EltTy.packing .f32)

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S5000x48_S48x48_S5000x48_1_0_0_1_n_n : DotDims S5000x48 S48x48 S5000x48 where
  lhsContracting := [1]
  rhsContracting := [0]
  lhsNonContracting := [0]
  rhsNonContracting := [1]
  lhsBatch := []
  rhsBatch := []
  wf := dot_S5000x48_S48x48_S5000x48_1_0_0_1_n_n_wf

abbrev win0_0 : Pipeline.Window sig grid0 :=
  Pipeline.Window.ofSpec (Memref.whole main_v13) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S48x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S48x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x48.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x48.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S48x48.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S48x48.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x48.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x48.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S48x48 : Shape := ⟨2, ![48, 48]⟩
abbrev S48 : Shape := ⟨1, ![48]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S1x48 : Shape := ⟨2, ![1, 48]⟩

abbrev nBuf : Space → Nat
  | .hbm => 53
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x48, .f32⟩
  | .hbm, ⟨3, _⟩ => ⟨S48x48, .f32⟩
  | .hbm, ⟨4, _⟩ => ⟨S48, .f32⟩
  | .hbm, ⟨5, _⟩ => ⟨S48x48, .f32⟩
  | .hbm, ⟨6, _⟩ => ⟨S48x48, .f32⟩
  | .hbm, ⟨7, _⟩ => ⟨S48, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x48, .f32⟩
  | .hbm, ⟨21, _⟩ => ⟨S_, .f32⟩
  | .hbm, ⟨22, _⟩ => ⟨S100000x48, .f32⟩
  | .hbm, ⟨23, _⟩ => ⟨S1600000x1, .i32⟩
  | .hbm, ⟨24, _⟩ => ⟨S100000x48, .f32⟩
  | .hbm, ⟨25, _⟩ => ⟨S100000x48, .f32⟩
  | .hbm, ⟨26, _⟩ => ⟨S100000x48, .f32⟩
  | .hbm, ⟨27, _⟩ => ⟨S100000x48, .f32⟩
  | .hbm, ⟨28, _⟩ => ⟨S1x48, .f32⟩
  | .hbm, ⟨29, _⟩ => ⟨S100000x48, .f32⟩
  | .hbm, ⟨30, _⟩ => ⟨S100000x48, .f32⟩
  | .hbm, ⟨31, _⟩ => ⟨S_, .f32⟩
  | .hbm, ⟨32, _⟩ => ⟨S100000x48, .f32⟩
  | .hbm, ⟨33, _⟩ => ⟨S100000x48, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x48, .f32⟩
  | .hbm, ⟨43, _⟩ => ⟨S_, .f32⟩
  | .hbm, ⟨44, _⟩ => ⟨S100000x48, .f32⟩
  | .hbm, ⟨45, _⟩ => ⟨S1600000x1, .i32⟩
  | .hbm, ⟨46, _⟩ => ⟨S100000x48, .f32⟩
  | .hbm, ⟨47, _⟩ => ⟨S100000x48, .f32⟩
  | .hbm, ⟨48, _⟩ => ⟨S100000x48, .f32⟩
  | .hbm, ⟨49, _⟩ => ⟨S100000x48, .f32⟩
  | .hbm, ⟨50, _⟩ => ⟨S1x48, .f32⟩
  | .hbm, ⟨51, _⟩ => ⟨S100000x48, .f32⟩
  | .hbm, ⟨52, _⟩ => ⟨S100000x48, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x48_S48x48_S100000x48_1_0_0_1_n_n_wf : DotDims.WF S100000x48 S48x48 S100000x48 [1] [0] [0] [1] [] []

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x48_S48x48_S100000x48_1_0_0_1_n_n : DotDims S100000x48 S48x48 S100000x48 where
  lhsContracting := [1]
  rhsContracting := [0]
  lhsNonContracting := [0]
  rhsNonContracting := [1]
  lhsBatch := []
  rhsBatch := []
  wf := dot_S100000x48_S48x48_S100000x48_1_0_0_1_n_n_wf

class Facts : Prop extends Facts₀ where

variable [Facts]
-- ==== Proof.KernelRun.lean ====
/-
  The idealized kernel's run, with its result named.

  The program is four segments: the host operations that form the first neighbour sums, the first tiled dense transform, the
  host operations that form the second neighbour sums from its result, and the second tiled dense transform. Every weakly
  fair execution runs through them in order and ends with each unscoped buffer at the contents the last boundary gives it:
  the result array at what the second transform's write-backs leave, and the eight argument arrays as launched, since no
  segment writes an argument.
-/
import proofs.«131543_j86672440033638_1_alg».proof.Proof.Gen.KernelIdeal.Frame

set_option maxRecDepth 16384

noncomputable section

namespace Cert.GraphConv.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents and
    the arguments as launched. -/
theorem run_result : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result array's contents at the last boundary are what the second transform's write-backs leave. -/
theorem W4_result (c : Dev nD) :
    W4 m ρ c (Proc.devRef .tc main_v27) = (dat1 (V3 m ρ) c).arrAt 5 cfg1.N := W4_arr m ρ c 5

/-- The first transform's result array, when the second transform is entered, is what the first's write-backs left: the
    host operations between the two write other buffers. -/
theorem W2_hidden (c : Dev nD) :
    W2 m ρ c (Proc.devRef .tc main_v15) = (dat0 (V1 m ρ) c).arrAt 5 cfg0.N := W2_arr m ρ c 5

end Cert.GraphConv.KernelRun

end
-- ==== Proof.Neighbours.lean ====
/-
  The neighbour sums, as one function of the node features and the edge list.

  Row 0 of the edge list holds each edge's source node and row 1 its destination. A negative source index is wrapped by
  adding the node count; the feature rows of the sources are gathered, one row per edge, and each is added into the row of
  its destination in an array of zeros. Both programs spell this with the same operations on the same operands, so the
  function is never opened here: it is stated once in each program's vocabulary and the two statements are the same term.
-/
import proofs.«131543_j86672440033638_1_alg».proof.Proof.Gen.KernelIdeal
import proofs.«131543_j86672440033638_1_alg».proof.Proof.Gen.ReferenceIdeal.Read

noncomputable section

namespace Cert.GraphConv

open Idealize.ShloMosaic

variable {F : FTy → Type} [FloatOps F]

section KernelSide
open Cert.KernelIdeal Cert.KernelIdeal.Gen

/-- One row of the edge list, as a vector of node indices. -/
def edgeRow0K (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
def edgeRow1K (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A negative index counts from the end: add the node count to it. -/
def wrapK (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 100000#32))) s

/-- The neighbour sums of `feat` along the edges `e`, in the kernel program's vocabulary. -/
def sumsK (feat : (⟨S100000x48, .f32⟩ : BufTy).Contents (Elt F)) (e : (⟨S2x1600000, .i32⟩ : BufTy).Contents (Elt F)) :
    (⟨S100000x48, .f32⟩ : BufTy).Contents (Elt F) :=
  Host.scatterAdd scatter_S100000x48_S1600000x1_S1600000x48_1_0_0_1
    (broadcastInDim S100000x48 ![] bcast_S_S100000x48 (constant (F := F) S_ .f32 0x00000000#32))
    (broadcastInDim S1600000x1 ![0] bcast_S1600000_S1600000x1_0 (edgeRow1K e))
    (Host.gather gather_S100000x48_S1600000x1_S1600000x48_1_0_n_n_0_1_148 feat
      (broadcastInDim S1600000x1 ![0] bcast_S1600000_S1600000x1_0 (wrapK (edgeRow0K e))))

end KernelSide

section ReferenceSide
open Cert.ReferenceIdeal Cert.ReferenceIdeal.Gen Cert.ReferenceIdeal.Read

/-- The neighbour sums of `feat` along the edges `e`, in the reference program's vocabulary. -/
def sumsR (feat : (⟨S100000x48, .f32⟩ : BufTy).Contents (Elt F)) (e : (⟨S2x1600000, .i32⟩ : BufTy).Contents (Elt F)) :
    (⟨S100000x48, .f32⟩ : BufTy).Contents (Elt F) :=
  Host.scatterAdd scatter_S100000x48_S1600000x1_S1600000x48_1_0_0_1 (val_main_v11 (F := F)) (val_main_v12 (F := F) e)
    (Host.gather gather_S100000x48_S1600000x1_S1600000x48_1_0_n_n_0_1_148 feat (val_main_v9 (F := F) e))

/-- The reference's first neighbour sums are those of the input features. -/
theorem first_sums (x0 : (⟨S100000x48, .f32⟩ : BufTy).Contents (Elt F)) (x1 : (⟨S2x1600000, .i32⟩ : BufTy).Contents (Elt F)) :
    val_main_v13 (F := F) x0 x1 = sumsR x0 x1 := rfl

/-- Its second neighbour sums are those of the first layer's result, along the same edges. -/
theorem second_sums (x0 : (⟨S100000x48, .f32⟩ : BufTy).Contents (Elt F)) (x1 : (⟨S2x1600000, .i32⟩ : BufTy).Contents (Elt F))
    (x2 x3 : (⟨S48x48, .f32⟩ : BufTy).Contents (Elt F)) (x4 : (⟨S48, .f32⟩ : BufTy).Contents (Elt F)) :
    val_main_v30 (F := F) x0 x1 x2 x3 x4 = sumsR (val_main_v20 (F := F) x0 x1 x2 x3 x4) x1 := rfl

end ReferenceSide

/-- The two vocabularies name one function: the records of the gather and of the scatter-add have the same fields. -/
theorem sumsK_eq_sumsR (feat : (⟨Cert.KernelIdeal.S100000x48, .f32⟩ : BufTy).Contents (Elt F))
    (e : (⟨Cert.KernelIdeal.S2x1600000, .i32⟩ : BufTy).Contents (Elt F)) :
    sumsK feat e = sumsR feat e := rfl

end Cert.GraphConv

end
-- ==== Proof.Entry.lean ====
/-
  What the two tiled transforms are entered with.

  The first is entered after the host operations that form the first neighbour sums: its window of sums holds the
  neighbour sums of the input features along the edges, its feature window the input features, its weights and bias the
  first layer's (the bias recast as one row). Between the two transforms the host forms the second neighbour sums from the
  first transform's result array, along the same edges (the two rows of the edge list were cut out once, before the first
  transform, and nothing has written them since); the second transform's feature window is that result array itself.
-/
import proofs.«131543_j86672440033638_1_alg».proof.Proof.KernelRun
import proofs.«131543_j86672440033638_1_alg».proof.Proof.Neighbours
import Idealize.ShloMosaic.Lib.StableHlo.Run

set_option maxRecDepth 16384

noncomputable section

namespace Cert.GraphConv.Entry

open Cert.KernelIdeal Cert.KernelIdeal.Gen
open Idealize.ShloMosaic Idealize.ShloMosaic.TcCoe Idealize.SL.Sem Idealize.ShloMosaic.StableHlo
open Cert.GraphConv

variable (m : (ℓ : Loc nD τ sig) → Buf (Elt Ideal) ℓ) (ρ : Dev nD → PrngReg)

/-! ## The first transform's entry -/

theorem first_sums (c : Dev nD) :
    V1 m ρ c main_v13 = sumsK (m ((c : Thread nD τ).loc main_arg0)) (m ((c : Thread nD τ).loc main_arg1)) := by
  show StableHlo.after hostOps0 (W0 m ρ c) (Proc.devRef .tc main_v13) = _
  after_results
  rfl

theorem first_feats (c : Dev nD) : V1 m ρ c main_arg0 = m ((c : Thread nD τ).loc main_arg0) := by
  show StableHlo.after hostOps0 (W0 m ρ c) (Proc.devRef .tc main_arg0) = _
  after_results

theorem first_w (c : Dev nD) : V1 m ρ c main_arg2 = m ((c : Thread nD τ).loc main_arg2) := by
  show StableHlo.after hostOps0 (W0 m ρ c) (Proc.devRef .tc main_arg2) = _
  after_results

theorem first_w' (c : Dev nD) : V1 m ρ c main_arg3 = m ((c : Thread nD τ).loc main_arg3) := by
  show StableHlo.after hostOps0 (W0 m ρ c) (Proc.devRef .tc main_arg3) = _
  after_results

theorem first_bias (c : Dev nD) :
    V1 m ρ c main_v14 = shapeCast _ (m ((c : Thread nD τ).loc main_arg4)) shapeCasts_S48_S1x48 := by
  show StableHlo.after hostOps0 (W0 m ρ c) (Proc.devRef .tc main_v14) = _
  after_results
  rfl

/-! ## Between the transforms -/

/-- The edge list's two rows, cut out before the first transform, are still there after it. -/
theorem kept_row0 (c : Dev nD) :
    W2 m ρ c (Proc.devRef .tc main_v1) = edgeRow0K (m ((c : Thread nD τ).loc main_arg1)) := by
  rw [W2_of_ne m ρ c main_v1 (by decide)]
  show StableHlo.after hostOps0 (W0 m ρ c) (Proc.devRef .tc main_v1) = _
  after_results
  rfl

theorem kept_row1 (c : Dev nD) :
    W2 m ρ c (Proc.devRef .tc main_v3) = edgeRow1K (m ((c : Thread nD τ).loc main_arg1)) := by
  rw [W2_of_ne m ρ c main_v3 (by decide)]
  show StableHlo.after hostOps0 (W0 m ρ c) (Proc.devRef .tc main_v3) = _
  after_results
  rfl

theorem kept_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results

theorem kept_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results

theorem kept_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results

/-! ## The second transform's entry -/

/-- Its feature window is the first transform's result array. -/
theorem second_feats (c : Dev nD) : V3 m ρ c main_v15 = W2 m ρ c (Proc.devRef .tc main_v15) := by
  show StableHlo.after hostOps1 (W2 m ρ c) (Proc.devRef .tc main_v15) = _
  after_results

/-- Its window of sums holds the neighbour sums of that array along the same edges. -/
theorem second_sums (c : Dev nD) :
    V3 m ρ c main_v25 = sumsK (W2 m ρ c (Proc.devRef .tc main_v15)) (m ((c : Thread nD τ).loc main_arg1)) := by
  show StableHlo.after hostOps1 (W2 m ρ c) (Proc.devRef .tc main_v25) = _
  after_results
  rw [kept_row0, kept_row1]
  rfl

theorem second_w (c : Dev nD) : V3 m ρ c main_arg5 = m ((c : Thread nD τ).loc main_arg5) := by
  show StableHlo.after hostOps1 (W2 m ρ c) (Proc.devRef .tc main_arg5) = _
  after_results
  exact kept_arg5 m ρ c

theorem second_w' (c : Dev nD) : V3 m ρ c main_arg6 = m ((c : Thread nD τ).loc main_arg6) := by
  show StableHlo.after hostOps1 (W2 m ρ c) (Proc.devRef .tc main_arg6) = _
  after_results
  exact kept_arg6 m ρ c

theorem second_bias (c : Dev nD) :
    V3 m ρ c main_v26 = shapeCast _ (m ((c : Thread nD τ).loc main_arg7)) shapeCasts_S48_S1x48 := by
  show StableHlo.after hostOps1 (W2 m ρ c) (Proc.devRef .tc main_v26) = _
  after_results
  rw [kept_arg7]
  rfl

end Cert.GraphConv.Entry

end
-- ==== Proof.Block.lean ====
/-
  What one grid point computes, entry by entry.

  A point holds a block of 5000 rows of the neighbour sums (`a`) and of the node features (`x`), the two weight matrices
  and the bias as one row. It multiplies each block into its weight matrix with a zero accumulator, adds the two products
  and the bias row laid along every row, and (first layer only) takes the maximum with zero. At the ideal values a matrix
  product into a zero accumulator is the plain sum over the contracted axis, so entry (p, q) of what the point stores is

      Σ_k a[p,k]·w[k,q] + Σ_k x[p,k]·w'[k,q] + b[0,q]        (first layer: its maximum with 0).

  The contraction index of the product is a one-coordinate index; summing over it is summing over k = 0 … 47.
-/
import proofs.«131543_j86672440033638_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.GraphConv.Block

open Cert.KernelIdeal Cert.KernelIdeal.Gen
open Idealize.ShloMosaic Idealize.ShloMosaic.ValueIdx

/-- The product's dimension numbers: rows × contraction times contraction × columns. -/
abbrev D := dot_S5000x48_S48x48_S5000x48_1_0_0_1_n_n

/-! ## Operand indices of the product at an output index -/

theorem lhs0 (i : S5000x48.Idx) (q : D.contr.Idx) : (D.lhsIdx i q 0).val = (i 0).val := by
  unfold DotDims.lhsIdx
  rw [dif_neg (show ¬(0 : Fin S5000x48.rank) ∈ D.lhsBatch by decide), dif_pos (show (0 : Fin S5000x48.rank) ∈ D.lhsNonContracting by decide)]
  rfl
theorem lhs1 (i : S5000x48.Idx) (q : D.contr.Idx) : (D.lhsIdx i q 1).val = (q ⟨0, by decide⟩).val :=
  D.lhsIdx_val_of_single rfl i q
theorem rhs0 (i : S5000x48.Idx) (q : D.contr.Idx) : (D.rhsIdx i q 0).val = (q ⟨0, by decide⟩).val :=
  D.rhsIdx_val_of_single rfl i q
theorem rhs1 (i : S5000x48.Idx) (q : D.contr.Idx) : (D.rhsIdx i q 1).val = (i 1).val := by
  unfold DotDims.rhsIdx
  rw [dif_neg (show ¬(1 : Fin S48x48.rank) ∈ D.rhsBatch by decide), dif_pos (show (1 : Fin S48x48.rank) ∈ D.rhsNonContracting by decide)]
  rfl

/-- A block times a weight matrix, into the zero accumulator, at (p, q): the sum over k of the products. -/
theorem matmul_at (l : FVec Ideal S5000x48 .f32) (r : FVec Ideal S48x48 .f32) (p : Fin 5000) (q : Fin 48) :
    matmul D none l r (constant S5000x48 .f32 0x00000000#32) (ix2 p q) = ∑ k : Fin 48, l (ix2 p k) * r (ix2 k q) := by
  show FloatOps.matmul D none l r (constant S5000x48 .f32 0x00000000#32) (ix2 p q) = _
  rw [Ideal.matmul_constant_zero_apply, ← Equiv.sum_comp (contrEquiv1 D 48 rfl rfl).symm]
  refine Finset.sum_congr rfl fun k _ => ?_
  have hk := contrEquiv1_symm_val D 48 rfl rfl k
  have el : D.lhsIdx (ix2 p q) ((contrEquiv1 D 48 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 48 rfl rfl).symm k) = ix2 k q := funext fun a => Fin.ext (by
    match a with
    | ⟨0, _⟩ => exact (rhs0 _ _).trans hk
    | ⟨1, _⟩ => exact rhs1 _ _)
  rw [el, er]

/-- The bias row laid along every row, at (p, q): the row's entry q. -/
theorem biasrow_at (b : FVec Ideal S1x48 .f32) (p : Fin 5000) (q : Fin 48) :
    broadcastTo S5000x48 b broadcasts_S1x48_S5000x48 (ix2 p q) = b (ix2 (0 : Fin 1) q) :=
  broadcastTo_apply b broadcasts_S1x48_S5000x48 (ix2 p q) (ix2 (0 : Fin 1) q) (by
    intro a
    match a with
    | ⟨0, _⟩ => rfl
    | ⟨1, _⟩ => rfl)

/-- The first layer's stored value at (p, q). -/
theorem first_at (a x : FVec Ideal S5000x48 .f32) (w w' : FVec Ideal S48x48 .f32) (b : FVec Ideal S1x48 .f32)
    (p : Fin 5000) (q : Fin 48) :
    k0_pay1 (F := Ideal) a x w w' b (ix2 p q)
      = max ((∑ k : Fin 48, a (ix2 p k) * w (ix2 k q)) + (∑ k : Fin 48, x (ix2 p k) * w' (ix2 k q)) + b (ix2 (0 : Fin 1) q)) 0 := by
  unfold k0_pay1
  simp only [shapeCast_self]
  show max (matmul (F := Ideal) D none a w (constant (F := Ideal) S5000x48 .f32 0x00000000#32) (ix2 p q)
      + matmul (F := Ideal) D none x w' (constant (F := Ideal) S5000x48 .f32 0x00000000#32) (ix2 p q)
      + broadcastTo S5000x48 b broadcasts_S1x48_S5000x48 (ix2 p q)) (Ideal.ofBits .f32 0x00000000#32) = _
  rw [matmul_at, matmul_at, biasrow_at, Ideal.ofBits_zero_f32]

/-- The second layer's stored value at (p, q). -/
theorem second_at (a x : FVec Ideal S5000x48 .f32) (w w' : FVec Ideal S48x48 .f32) (b : FVec Ideal S1x48 .f32)
    (p : Fin 5000) (q : Fin 48) :
    k1_pay1 (F := Ideal) a x w w' b (ix2 p q)
      = (∑ k : Fin 48, a (ix2 p k) * w (ix2 k q)) + (∑ k : Fin 48, x (ix2 p k) * w' (ix2 k q)) + b (ix2 (0 : Fin 1) q) := by
  unfold k1_pay1
  simp only [shapeCast_self]
  show matmul (F := Ideal) D none a w (constant (F := Ideal) S5000x48 .f32 0x00000000#32) (ix2 p q)
      + matmul (F := Ideal) D none x w' (constant (F := Ideal) S5000x48 .f32 0x00000000#32) (ix2 p q)
      + broadcastTo S5000x48 b broadcasts_S1x48_S5000x48 (ix2 p q) = _
  rw [matmul_at, matmul_at, biasrow_at]

end Cert.GraphConv.Block

end
-- ==== Proof.Layer.lean ====
/-
  The dense node transform of a graph convolution, as a function of whole arrays over the extended reals.

  For node features `A` (the neighbour sums) and `X` (the nodes' own features), both [100000, 48], weights `W`, `W'`
  ([48, 48]) and a bias `b` ([48]), entry (r, c) of the result is

      Σ_k A[r, k] · W[k, c]  +  Σ_k X[r, k] · W'[k, c]  +  b[c],

  that is, `A·W + X·W' + b` with the bias laid along every row. Row r of the result depends on row r of `A` and of `X`
  only, which is why the transform may be computed one block of rows at a time. `relu` is the entrywise maximum with zero.
  Only sums, products and a maximum occur: nothing here needs an entry to be finite.
-/
import Idealize.ShloMosaic.PureOps.Ideal
import Idealize.ShloMosaic.Lib.ValueIdx

noncomputable section

namespace Cert.GraphConv

open Idealize.ShloMosaic Idealize.ShloMosaic.ValueIdx

/-- Node features: one row of 48 numbers per node. -/
abbrev Nodes : Shape := ⟨2, ![100000, 48]⟩
/-- A 48 × 48 weight matrix. -/
abbrev Weights : Shape := ⟨2, ![48, 48]⟩
/-- A bias: one number per output column. -/
abbrev Bias : Shape := ⟨1, ![48]⟩

/-- Entry (r, c) of `A·W + X·W' + b`. -/
def layerAt (A X : Nodes.Idx → EReal) (W W' : Weights.Idx → EReal) (b : Bias.Idx → EReal)
    (r : Fin 100000) (c : Fin 48) : EReal :=
  (∑ k : Fin 48, A (ix2 r k) * W (ix2 k c)) + (∑ k : Fin 48, X (ix2 r k) * W' (ix2 k c)) + b (ix1 c)

/-- `A·W + X·W' + b` as an array, index by index. -/
def layer (A X : Nodes.Idx → EReal) (W W' : Weights.Idx → EReal) (b : Bias.Idx → EReal) : Nodes.Idx → EReal :=
  fun i => layerAt A X W W' b (i 0) (i 1)

/-- A bias held as a one-row matrix, as a vector. -/
def rowOf (B : (⟨2, ![1, 48]⟩ : Shape).Idx → EReal) : Bias.Idx → EReal := fun j => B (ix2 (0 : Fin 1) (j 0))

/-- The entrywise maximum with zero. -/
def relu (Y : Nodes.Idx → EReal) : Nodes.Idx → EReal := fun i => max (Y i) 0

theorem layer_apply (A X : Nodes.Idx → EReal) (W W' : Weights.Idx → EReal) (b : Bias.Idx → EReal)
    (r : Fin 100000) (c : Fin 48) : layer A X W W' b (ix2 r c) = layerAt A X W W' b r c := rfl

theorem relu_apply (Y : Nodes.Idx → EReal) (i : Nodes.Idx) : relu Y i = max (Y i) 0 := rfl

end Cert.GraphConv

end
-- ==== Proof.First.lean ====
/-
  The first tiled transform writes `relu (A·W + X·W' + b)` of the arrays it is entered with.

  Its grid has 20 points. At point t the windows of the neighbour sums `A`, of the features `X` and of the result hold
  rows 5000·t … 5000·t + 4999 (all 48 columns); the two weight matrices and the bias row are whole at every point. An
  entry of the result's row r depends on row r of `A` and of `X` only, so the block point t writes back is exactly rows
  5000·t … of the whole-array function, and since 20 · 5000 = 100000 every row is in the block of the point r / 5000.
-/
import proofs.«131543_j86672440033638_1_alg».proof.Proof.Gen.KernelIdeal.Frame
import proofs.«131543_j86672440033638_1_alg».proof.Proof.Block
import proofs.«131543_j86672440033638_1_alg».proof.Proof.Layer
import Idealize.ShloMosaic.Lib.Pipeline.Value

set_option maxRecDepth 16384

noncomputable section

namespace Cert.GraphConv.First

open Cert.KernelIdeal Cert.KernelIdeal.Gen
open Idealize.ShloMosaic Idealize.ShloMosaic.TcCoe Idealize.ShloMosaic.ValueIdx Idealize.SL.Sem
open Idealize.ShloMosaic.Pipeline (Dat)
open Cert.GraphConv

-- the contents the transform is entered with: any
variable (V : (c : Dev nD) → (b : Ref sig .tc) → Buf (Elt Ideal) ((c : Thread nD τ).loc b))

theorem hz : (![0, 0] : Fin 2 → Nat) = fun _ => 0 := funext fun a => by fin_cases a <;> rfl

/-- What the result array ends holding, as a function of the entry arrays. -/
def G (c : Dev nD) : S100000x48.Idx → EReal :=
  relu (layer (V c main_v13) (V c main_arg0) (V c main_arg2) (V c main_arg3) (rowOf (V c main_v14)))

/-- Where each window's block sits at point t: the row-tiled windows at block row t, the others at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 5000·t + p of the array. -/
def row (t : Fin cfg0.N) (p : Fin 5000) : Fin 100000 :=
  ⟨5000 * t.val + p.val, by have h : t.val < 20 := lt_of_lt_of_eq t.isLt N_0; have := p.isLt; omega⟩

/-! ## The input blocks, read where the output's block says -/

theorem read_sums (c : Dev nD) (t : Fin cfg0.N) (p : Fin 5000) (k : Fin 48) :
    (iblk0 V c 0 t : S5000x48.Idx → EReal) (ix2 p k) = (V c main_v13 : S100000x48.Idx → EReal) (ix2 (row t p) k) := by
  unfold iblk0
  rw [View.read_apply]
  show V c main_v13 _ = V c main_v13 _
  congr 1
  funext a
  apply Fin.ext
  obtain ⟨e0, e1, -⟩ := idx_facts t
  match a with
  | ⟨0, _⟩ => show win0_0.index t 0 * 5000 + 1 * p.val = 5000 * t.val + p.val; rw [e0]; omega
  | ⟨1, _⟩ => show win0_0.index t 1 * 48 + 1 * k.val = k.val; rw [e1]; omega

theorem read_feats (c : Dev nD) (t : Fin cfg0.N) (p : Fin 5000) (k : Fin 48) :
    (iblk0 V c 1 t : S5000x48.Idx → EReal) (ix2 p k) = (V c main_arg0 : S100000x48.Idx → EReal) (ix2 (row t p) k) := by
  unfold iblk0
  rw [View.read_apply]
  show V c main_arg0 _ = V c main_arg0 _
  congr 1
  funext a
  apply Fin.ext
  obtain ⟨-, -, e0, e1, -⟩ := idx_facts t
  match a with
  | ⟨0, _⟩ => show win0_1.index t 0 * 5000 + 1 * p.val = 5000 * t.val + p.val; rw [e0]; omega
  | ⟨1, _⟩ => show win0_1.index t 1 * 48 + 1 * k.val = k.val; rw [e1]; omega

theorem read_w (c : Dev nD) (t : Fin cfg0.N) (k q : Fin 48) :
    (iblk0 V c 2 t : S48x48.Idx → EReal) (ix2 k q) = (V c main_arg2 : S48x48.Idx → EReal) (ix2 k q) := by
  unfold iblk0
  rw [View.read_apply]
  show V c main_arg2 _ = V c main_arg2 _
  congr 1
  funext a
  apply Fin.ext
  obtain ⟨-, -, -, -, e0, e1, -⟩ := idx_facts t
  match a with
  | ⟨0, _⟩ => show win0_2.index t 0 * 48 + 1 * k.val = k.val; rw [e0]; omega
  | ⟨1, _⟩ => show win0_2.index t 1 * 48 + 1 * q.val = q.val; rw [e1]; omega

theorem read_w' (c : Dev nD) (t : Fin cfg0.N) (k q : Fin 48) :
    (iblk0 V c 3 t : S48x48.Idx → EReal) (ix2 k q) = (V c main_arg3 : S48x48.Idx → EReal) (ix2 k q) := by
  unfold iblk0
  rw [View.read_apply]
  show V c main_arg3 _ = V c main_arg3 _
  congr 1
  funext a
  apply Fin.ext
  obtain ⟨-, -, -, -, -, -, e0, e1, -⟩ := idx_facts t
  match a with
  | ⟨0, _⟩ => show win0_3.index t 0 * 48 + 1 * k.val = k.val; rw [e0]; omega
  | ⟨1, _⟩ => show win0_3.index t 1 * 48 + 1 * q.val = q.val; rw [e1]; omega

theorem read_b (c : Dev nD) (t : Fin cfg0.N) (q : Fin 48) :
    (iblk0 V c 4 t : S1x48.Idx → EReal) (ix2 (0 : Fin 1) q) = (V c main_v14 : S1x48.Idx → EReal) (ix2 (0 : Fin 1) q) := by
  unfold iblk0
  rw [View.read_apply]
  show V c main_v14 _ = V c main_v14 _
  congr 1
  funext a
  apply Fin.ext
  obtain ⟨-, -, -, -, -, -, -, -, e0, e1, -⟩ := idx_facts t
  match a with
  | ⟨0, _⟩ => show win0_4.index t 0 * 1 + 1 * 0 = 0; rw [e0]
  | ⟨1, _⟩ => show win0_4.index t 1 * 48 + 1 * q.val = q.val; rw [e1]; omega

/-- Entry (p, q) of the output's block at point t is entry (5000·t + p, q) of the array. -/
theorem out_emb (t : Fin cfg0.N) (p : Fin 5000) (q : Fin 48) :
    (((cfg0.win 5).blk t).view.emb (ix2 p q) : S100000x48.Idx) = ix2 (row t p) q := by
  funext a
  apply Fin.ext
  obtain ⟨-, -, -, -, -, -, -, -, -, -, e0, e1⟩ := idx_facts t
  match a with
  | ⟨0, _⟩ => show win0_5.index t 0 * 5000 + 1 * p.val = 5000 * t.val + p.val; rw [e0]; omega
  | ⟨1, _⟩ => show win0_5.index t 1 * 48 + 1 * q.val = q.val; rw [e1]; omega

/-! ## What a point writes back, and the whole array -/

/-- Point t writes back block t of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x48) hz, View.ld_unit_zero (S := S48x48) hz, View.ld_unit_zero (S := S1x48) hz]
  funext y
  obtain ⟨p, q, rfl⟩ : ∃ (p : Fin 5000) (q : Fin 48), y = ix2 p q := ⟨y 0, y 1, eq_ix2 y⟩
  rw [View.read_apply]
  refine (Block.first_at (iblk0 V c 0 t) (iblk0 V c 1 t) (iblk0 V c 2 t) (iblk0 V c 3 t) (iblk0 V c 4 t) p q).trans ?_
  refine Eq.trans ?_ (congrArg (G V c) (out_emb t p q).symm)
  show _ = max (layerAt (V c main_v13) (V c main_arg0) (V c main_arg2) (V c main_arg3) (rowOf (V c main_v14)) (row t p) q) 0
  unfold layerAt
  simp only [read_sums V c t, read_feats V c t, read_w V c t, read_w' V c t, read_b V c t]
  rfl

/-- An index is in point t's block iff each coordinate is in the block's range on its axis. -/
theorem mem_blk (t : Fin cfg0.N) (i : S100000x48.Idx) :
    i ∈ ((cfg0.win 5).blk t).view.set ↔ ∀ a : Fin 2, win0_5.index t a * S5000x48.size a ≤ (i a).val ∧ (i a).val < win0_5.index t a * S5000x48.size a + S5000x48.size a := by
  show i ∈ ((View.whole main_v15).slice (win0_5.rect t)).set ↔ _
  rw [View.set_slice_whole, Rect.mem_set_unit]
  exact Iff.rfl

/-- Every row is in the block of the point r / 5000. -/
theorem cover (i : S100000x48.Idx) : ∃ t : Fin cfg0.N, (cfg0.win 5).flush t = true ∧ i ∈ ((cfg0.win 5).blk t).view.set := by
  have h0 : (i 0).val < 100000 := (i 0).isLt
  have h1 : (i 1).val < 48 := (i 1).isLt
  have hN : cfg0.N = 20 := N_0
  refine ⟨⟨(i 0).val / 5000, by rw [hN]; omega⟩, flush0_5 _, ?_⟩
  rw [mem_blk]
  obtain ⟨-, -, -, -, -, -, -, -, -, -, e0, e1⟩ := idx_facts ⟨(i 0).val / 5000, by rw [hN]; omega⟩
  intro a
  match a with
  | ⟨0, _⟩ =>
    show win0_5.index ⟨(i 0).val / 5000, _⟩ 0 * 5000 ≤ (i 0).val ∧ (i 0).val < win0_5.index ⟨(i 0).val / 5000, _⟩ 0 * 5000 + 5000
    rw [e0]; show (i 0).val / 5000 * 5000 ≤ (i 0).val ∧ (i 0).val < (i 0).val / 5000 * 5000 + 5000; omega
  | ⟨1, _⟩ =>
    show win0_5.index ⟨(i 0).val / 5000, _⟩ 1 * 48 ≤ (i 1).val ∧ (i 1).val < win0_5.index ⟨(i 0).val / 5000, _⟩ 1 * 48 + 48
    rw [e1]; omega

/-- After all 20 write-backs the result array holds `G`. -/
theorem final (c : Dev nD) : (dat0 V c).arrAt 5 cfg0.N = G V c :=
  (dat0 V c).arrAt_eq_of_cover 5 (G V c) (fun t _ => flushed_eq V c t) cover

end Cert.GraphConv.First

end
-- ==== Proof.Second.lean ====
/-
  The second tiled transform writes `A·W + X·W' + b` of the arrays it is entered with.

  It is tiled as the first: 20 points, point t holding rows 5000·t … 5000·t + 4999 of the neighbour sums `A`, of the
  features `X` (here the first transform's result array) and of the result, the weights and the bias row whole at every
  point; there is no maximum. Row r of the result depends on row r of `A` and of `X` only, so the block point t writes
  back is rows 5000·t … of the whole-array function, and the 20 blocks cover all 100000 rows.
-/
import proofs.«131543_j86672440033638_1_alg».proof.Proof.Gen.KernelIdeal.Frame
import proofs.«131543_j86672440033638_1_alg».proof.Proof.Block
import proofs.«131543_j86672440033638_1_alg».proof.Proof.Layer
import Idealize.ShloMosaic.Lib.Pipeline.Value

set_option maxRecDepth 16384

noncomputable section

namespace Cert.GraphConv.Second

open Cert.KernelIdeal Cert.KernelIdeal.Gen
open Idealize.ShloMosaic Idealize.ShloMosaic.TcCoe Idealize.ShloMosaic.ValueIdx Idealize.SL.Sem
open Idealize.ShloMosaic.Pipeline (Dat)
open Cert.GraphConv

-- the contents the transform is entered with: any
variable (V : (c : Dev nD) → (b : Ref sig .tc) → Buf (Elt Ideal) ((c : Thread nD τ).loc b))

theorem hz : (![0, 0] : Fin 2 → Nat) = fun _ => 0 := funext fun a => by fin_cases a <;> rfl

/-- What the result array ends holding, as a function of the entry arrays. -/
def G (c : Dev nD) : S100000x48.Idx → EReal :=
  layer (V c main_v25) (V c main_v15) (V c main_arg5) (V c main_arg6) (rowOf (V c main_v26))

/-- Where each window's block sits at point t: the row-tiled windows at block row t, the others at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block is row 5000·t + p of the array. -/
def row (t : Fin cfg1.N) (p : Fin 5000) : Fin 100000 :=
  ⟨5000 * t.val + p.val, by have h : t.val < 20 := lt_of_lt_of_eq t.isLt N_1; have := p.isLt; omega⟩

/-! ## The input blocks, read where the output's block says -/

theorem read_sums (c : Dev nD) (t : Fin cfg1.N) (p : Fin 5000) (k : Fin 48) :
    (iblk1 V c 0 t : S5000x48.Idx → EReal) (ix2 p k) = (V c main_v25 : S100000x48.Idx → EReal) (ix2 (row t p) k) := by
  unfold iblk1
  rw [View.read_apply]
  show V c main_v25 _ = V c main_v25 _
  congr 1
  funext a
  apply Fin.ext
  obtain ⟨e0, e1, -⟩ := idx_facts t
  match a with
  | ⟨0, _⟩ => show win1_0.index t 0 * 5000 + 1 * p.val = 5000 * t.val + p.val; rw [e0]; omega
  | ⟨1, _⟩ => show win1_0.index t 1 * 48 + 1 * k.val = k.val; rw [e1]; omega

theorem read_feats (c : Dev nD) (t : Fin cfg1.N) (p : Fin 5000) (k : Fin 48) :
    (iblk1 V c 1 t : S5000x48.Idx → EReal) (ix2 p k) = (V c main_v15 : S100000x48.Idx → EReal) (ix2 (row t p) k) := by
  unfold iblk1
  rw [View.read_apply]
  show V c main_v15 _ = V c main_v15 _
  congr 1
  funext a
  apply Fin.ext
  obtain ⟨-, -, e0, e1, -⟩ := idx_facts t
  match a with
  | ⟨0, _⟩ => show win1_1.index t 0 * 5000 + 1 * p.val = 5000 * t.val + p.val; rw [e0]; omega
  | ⟨1, _⟩ => show win1_1.index t 1 * 48 + 1 * k.val = k.val; rw [e1]; omega

theorem read_w (c : Dev nD) (t : Fin cfg1.N) (k q : Fin 48) :
    (iblk1 V c 2 t : S48x48.Idx → EReal) (ix2 k q) = (V c main_arg5 : S48x48.Idx → EReal) (ix2 k q) := by
  unfold iblk1
  rw [View.read_apply]
  show V c main_arg5 _ = V c main_arg5 _
  congr 1
  funext a
  apply Fin.ext
  obtain ⟨-, -, -, -, e0, e1, -⟩ := idx_facts t
  match a with
  | ⟨0, _⟩ => show win1_2.index t 0 * 48 + 1 * k.val = k.val; rw [e0]; omega
  | ⟨1, _⟩ => show win1_2.index t 1 * 48 + 1 * q.val = q.val; rw [e1]; omega

theorem read_w' (c : Dev nD) (t : Fin cfg1.N) (k q : Fin 48) :
    (iblk1 V c 3 t : S48x48.Idx → EReal) (ix2 k q) = (V c main_arg6 : S48x48.Idx → EReal) (ix2 k q) := by
  unfold iblk1
  rw [View.read_apply]
  show V c main_arg6 _ = V c main_arg6 _
  congr 1
  funext a
  apply Fin.ext
  obtain ⟨-, -, -, -, -, -, e0, e1, -⟩ := idx_facts t
  match a with
  | ⟨0, _⟩ => show win1_3.index t 0 * 48 + 1 * k.val = k.val; rw [e0]; omega
  | ⟨1, _⟩ => show win1_3.index t 1 * 48 + 1 * q.val = q.val; rw [e1]; omega

theorem read_b (c : Dev nD) (t : Fin cfg1.N) (q : Fin 48) :
    (iblk1 V c 4 t : S1x48.Idx → EReal) (ix2 (0 : Fin 1) q) = (V c main_v26 : S1x48.Idx → EReal) (ix2 (0 : Fin 1) q) := by
  unfold iblk1
  rw [View.read_apply]
  show V c main_v26 _ = V c main_v26 _
  congr 1
  funext a
  apply Fin.ext
  obtain ⟨-, -, -, -, -, -, -, -, e0, e1, -⟩ := idx_facts t
  match a with
  | ⟨0, _⟩ => show win1_4.index t 0 * 1 + 1 * 0 = 0; rw [e0]
  | ⟨1, _⟩ => show win1_4.index t 1 * 48 + 1 * q.val = q.val; rw [e1]; omega

/-- Entry (p, q) of the output's block at point t is entry (5000·t + p, q) of the array. -/
theorem out_emb (t : Fin cfg1.N) (p : Fin 5000) (q : Fin 48) :
    (((cfg1.win 5).blk t).view.emb (ix2 p q) : S100000x48.Idx) = ix2 (row t p) q := by
  funext a
  apply Fin.ext
  obtain ⟨-, -, -, -, -, -, -, -, -, -, e0, e1⟩ := idx_facts t
  match a with
  | ⟨0, _⟩ => show win1_5.index t 0 * 5000 + 1 * p.val = 5000 * t.val + p.val; rw [e0]; omega
  | ⟨1, _⟩ => show win1_5.index t 1 * 48 + 1 * q.val = q.val; rw [e1]; omega

/-! ## What a point writes back, and the whole array -/

/-- Point t writes back block t of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x48) hz, View.ld_unit_zero (S := S48x48) hz, View.ld_unit_zero (S := S1x48) hz]
  funext y
  obtain ⟨p, q, rfl⟩ : ∃ (p : Fin 5000) (q : Fin 48), y = ix2 p q := ⟨y 0, y 1, eq_ix2 y⟩
  rw [View.read_apply]
  refine (Block.second_at (iblk1 V c 0 t) (iblk1 V c 1 t) (iblk1 V c 2 t) (iblk1 V c 3 t) (iblk1 V c 4 t) p q).trans ?_
  refine Eq.trans ?_ (congrArg (G V c) (out_emb t p q).symm)
  show _ = layerAt (V c main_v25) (V c main_v15) (V c main_arg5) (V c main_arg6) (rowOf (V c main_v26)) (row t p) q
  unfold layerAt
  simp only [read_sums V c t, read_feats V c t, read_w V c t, read_w' V c t, read_b V c t]
  rfl

/-- An index is in point t's block iff each coordinate is in the block's range on its axis. -/
theorem mem_blk (t : Fin cfg1.N) (i : S100000x48.Idx) :
    i ∈ ((cfg1.win 5).blk t).view.set ↔ ∀ a : Fin 2, win1_5.index t a * S5000x48.size a ≤ (i a).val ∧ (i a).val < win1_5.index t a * S5000x48.size a + S5000x48.size a := by
  show i ∈ ((View.whole main_v27).slice (win1_5.rect t)).set ↔ _
  rw [View.set_slice_whole, Rect.mem_set_unit]
  exact Iff.rfl

/-- Every row is in the block of the point r / 5000. -/
theorem cover (i : S100000x48.Idx) : ∃ t : Fin cfg1.N, (cfg1.win 5).flush t = true ∧ i ∈ ((cfg1.win 5).blk t).view.set := by
  have h0 : (i 0).val < 100000 := (i 0).isLt
  have h1 : (i 1).val < 48 := (i 1).isLt
  have hN : cfg1.N = 20 := N_1
  refine ⟨⟨(i 0).val / 5000, by rw [hN]; omega⟩, flush1_5 _, ?_⟩
  rw [mem_blk]
  obtain ⟨-, -, -, -, -, -, -, -, -, -, e0, e1⟩ := idx_facts ⟨(i 0).val / 5000, by rw [hN]; omega⟩
  intro a
  match a with
  | ⟨0, _⟩ =>
    show win1_5.index ⟨(i 0).val / 5000, _⟩ 0 * 5000 ≤ (i 0).val ∧ (i 0).val < win1_5.index ⟨(i 0).val / 5000, _⟩ 0 * 5000 + 5000
    rw [e0]; show (i 0).val / 5000 * 5000 ≤ (i 0).val ∧ (i 0).val < (i 0).val / 5000 * 5000 + 5000; omega
  | ⟨1, _⟩ =>
    show win1_5.index ⟨(i 0).val / 5000, _⟩ 1 * 48 ≤ (i 1).val ∧ (i 1).val < win1_5.index ⟨(i 0).val / 5000, _⟩ 1 * 48 + 48
    rw [e1]; omega

/-- After all 20 write-backs the result array holds `G`. -/
theorem final (c : Dev nD) : (dat1 V c).arrAt 5 cfg1.N = G V c :=
  (dat1 V c).arrAt_eq_of_cover 5 (G V c) (fun t _ => flushed_eq V c t) cover

end Cert.GraphConv.Second

end
-- ==== Proof.RefLayer.lean ====
/-
  The reference program, stage by stage, is the dense transform of `Layer.lean`.

  Its first layer computes `dot(agg, W) + dot(x, W') + b` with the bias broadcast along the rows, then the maximum with
  zero; its second layer the same without the maximum. At the ideal values a `dot_general` that contracts one axis is the
  sum over k of the products, so each stage read at an index (r, c) is `Σ_k A[r,k]·W[k,c] + Σ_k X[r,k]·W'[k,c] + b[c]`:
  the only work is to see that the operand indices the stages are read at are (r, k), (k, c) and (c).
  The neighbour sums (a gather followed by a scatter-add) are not opened: they enter as the stage that computes them.
-/
import proofs.«131543_j86672440033638_1_alg».proof.Proof.Gen.ReferenceIdeal.Read
import proofs.«131543_j86672440033638_1_alg».proof.Proof.Layer
import Idealize.ShloMosaic.PureOps.Ideal.Laws

noncomputable section

namespace Cert.GraphConv.Ref

open Cert.ReferenceIdeal Cert.ReferenceIdeal.Gen Cert.ReferenceIdeal.Read
open Idealize.ShloMosaic Idealize.ShloMosaic.ValueIdx Cert.GraphConv

/-! ## Where the stages read their operands -/

theorem lidx14 (i : S100000x48.Idx) (k : Fin 48) : lidx_main_v14 i k = ix2 (i 0) k :=
  funext fun a => Fin.ext (by match a with | ⟨0, _⟩ => rfl | ⟨1, _⟩ => rfl)
theorem ridx14 (i : S100000x48.Idx) (k : Fin 48) : ridx_main_v14 i k = ix2 k (i 1) :=
  funext fun a => Fin.ext (by match a with | ⟨0, _⟩ => rfl | ⟨1, _⟩ => rfl)
theorem lidx15 (i : S100000x48.Idx) (k : Fin 48) : lidx_main_v15 i k = ix2 (i 0) k :=
  funext fun a => Fin.ext (by match a with | ⟨0, _⟩ => rfl | ⟨1, _⟩ => rfl)
theorem ridx15 (i : S100000x48.Idx) (k : Fin 48) : ridx_main_v15 i k = ix2 k (i 1) :=
  funext fun a => Fin.ext (by match a with | ⟨0, _⟩ => rfl | ⟨1, _⟩ => rfl)
theorem lidx31 (i : S100000x48.Idx) (k : Fin 48) : lidx_main_v31 i k = ix2 (i 0) k :=
  funext fun a => Fin.ext (by match a with | ⟨0, _⟩ => rfl | ⟨1, _⟩ => rfl)
theorem ridx31 (i : S100000x48.Idx) (k : Fin 48) : ridx_main_v31 i k = ix2 k (i 1) :=
  funext fun a => Fin.ext (by match a with | ⟨0, _⟩ => rfl | ⟨1, _⟩ => rfl)
theorem lidx32 (i : S100000x48.Idx) (k : Fin 48) : lidx_main_v32 i k = ix2 (i 0) k :=
  funext fun a => Fin.ext (by match a with | ⟨0, _⟩ => rfl | ⟨1, _⟩ => rfl)
theorem ridx32 (i : S100000x48.Idx) (k : Fin 48) : ridx_main_v32 i k = ix2 k (i 1) :=
  funext fun a => Fin.ext (by match a with | ⟨0, _⟩ => rfl | ⟨1, _⟩ => rfl)
/-- The bias, broadcast to one row and then along the rows, is read at the column. -/
theorem bidx1 (i : S100000x48.Idx) : idx_main_v17 (idx_main_v18 i) = ix1 (i 1) :=
  funext fun a => Fin.ext (by match a with | ⟨0, _⟩ => rfl)
theorem bidx2 (i : S100000x48.Idx) : idx_main_v34 (idx_main_v35 i) = ix1 (i 1) :=
  funext fun a => Fin.ext (by match a with | ⟨0, _⟩ => rfl)

/-! ## The stages -/

variable (x0 : (⟨S100000x48, .f32⟩ : BufTy).Contents (Elt Ideal)) (x1 : (⟨S2x1600000, .i32⟩ : BufTy).Contents (Elt Ideal))
  (x2 x3 : (⟨S48x48, .f32⟩ : BufTy).Contents (Elt Ideal)) (x4 : (⟨S48, .f32⟩ : BufTy).Contents (Elt Ideal))
  (x5 x6 : (⟨S48x48, .f32⟩ : BufTy).Contents (Elt Ideal)) (x7 : (⟨S48, .f32⟩ : BufTy).Contents (Elt Ideal))

/-- The first layer before its maximum: the dense transform of the first neighbour sums and the input features. -/
theorem stage19 : val_main_v19 (F := Ideal) x0 x1 x2 x3 x4 = layer (val_main_v13 (F := Ideal) x0 x1) x0 x2 x3 x4 := by
  funext i
  rw [val_main_v19_apply, val_main_v16_apply, val_main_v14_apply, val_main_v15_apply, val_main_v18_apply, val_main_v17_apply]
  simp only [lidx14, ridx14, lidx15, ridx15, bidx1]
  rfl

/-- The first layer: its maximum with the zero array is `relu`. -/
theorem stage20 : val_main_v20 (F := Ideal) x0 x1 x2 x3 x4 = relu (layer (val_main_v13 (F := Ideal) x0 x1) x0 x2 x3 x4) := by
  funext i
  rw [val_main_v20_apply, stage19, val_main_call0_v0_apply, val_main_call0_cst_apply]
  show max _ (Ideal.ofBits .f32 0x00000000#32) = max _ 0
  rw [Ideal.ofBits_zero_f32]

/-- The second layer: the dense transform of the second neighbour sums and the first layer's result. -/
theorem stage36 : val_main_v36 (F := Ideal) x0 x1 x2 x3 x4 x5 x6 x7
    = layer (val_main_v30 (F := Ideal) x0 x1 x2 x3 x4) (val_main_v20 (F := Ideal) x0 x1 x2 x3 x4) x5 x6 x7 := by
  funext i
  rw [val_main_v36_apply, val_main_v33_apply, val_main_v31_apply, val_main_v32_apply, val_main_v35_apply, val_main_v34_apply]
  simp only [lidx31, ridx31, lidx32, ridx32, bidx2]
  rfl

end Cert.GraphConv.Ref

end
-- ==== Proof.Spec.lean ====
/-
  The two-layer graph convolution as one function of the eight argument arrays, and the reference as that function.

  `hidden` is the first layer: the maximum with zero of the dense transform of the input features' neighbour sums and the
  input features. `network` is the second layer: the dense transform, with the second layer's weights and bias, of the
  neighbour sums of `hidden` along the same edges and of `hidden` itself. The reference's stages are these by the stage
  equations: its two neighbour sums are the one function of the features and the edges, its transforms are `layer`.
-/
import proofs.«131543_j86672440033638_1_alg».proof.Proof.RefLayer
import proofs.«131543_j86672440033638_1_alg».proof.Proof.Neighbours

noncomputable section

namespace Cert.GraphConv

open Cert.ReferenceIdeal Cert.ReferenceIdeal.Read Idealize.ShloMosaic

/-- The first layer's result. -/
def hidden (x0 : (⟨S100000x48, .f32⟩ : BufTy).Contents (Elt Ideal)) (x1 : (⟨S2x1600000, .i32⟩ : BufTy).Contents (Elt Ideal))
    (x2 x3 : (⟨S48x48, .f32⟩ : BufTy).Contents (Elt Ideal)) (x4 : (⟨S48, .f32⟩ : BufTy).Contents (Elt Ideal)) :
    (⟨S100000x48, .f32⟩ : BufTy).Contents (Elt Ideal) :=
  relu (layer (sumsR x0 x1) x0 x2 x3 x4)

/-- The network's result. -/
def network (x0 : (⟨S100000x48, .f32⟩ : BufTy).Contents (Elt Ideal)) (x1 : (⟨S2x1600000, .i32⟩ : BufTy).Contents (Elt Ideal))
    (x2 x3 : (⟨S48x48, .f32⟩ : BufTy).Contents (Elt Ideal)) (x4 : (⟨S48, .f32⟩ : BufTy).Contents (Elt Ideal))
    (x5 x6 : (⟨S48x48, .f32⟩ : BufTy).Contents (Elt Ideal)) (x7 : (⟨S48, .f32⟩ : BufTy).Contents (Elt Ideal)) :
    (⟨S100000x48, .f32⟩ : BufTy).Contents (Elt Ideal) :=
  layer (sumsR (hidden x0 x1 x2 x3 x4) x1) (hidden x0 x1 x2 x3 x4) x5 x6 x7

variable (x0 : (⟨S100000x48, .f32⟩ : BufTy).Contents (Elt Ideal)) (x1 : (⟨S2x1600000, .i32⟩ : BufTy).Contents (Elt Ideal))
  (x2 x3 : (⟨S48x48, .f32⟩ : BufTy).Contents (Elt Ideal)) (x4 : (⟨S48, .f32⟩ : BufTy).Contents (Elt Ideal))
  (x5 x6 : (⟨S48x48, .f32⟩ : BufTy).Contents (Elt Ideal)) (x7 : (⟨S48, .f32⟩ : BufTy).Contents (Elt Ideal))

/-- The reference's first layer is `hidden`. -/
theorem ref_hidden : val_main_v20 (F := Ideal) x0 x1 x2 x3 x4 = hidden x0 x1 x2 x3 x4 := by
  rw [Ref.stage20, first_sums]
  rfl

/-- The reference's result is `network`. -/
theorem ref_network : val_main_v36 (F := Ideal) x0 x1 x2 x3 x4 x5 x6 x7 = network x0 x1 x2 x3 x4 x5 x6 x7 := by
  rw [Ref.stage36, second_sums, ref_hidden]
  rfl

end Cert.GraphConv

end
-- ==== Proof.KernelValue.lean ====
/-
  The idealized kernel's result array is `network` of the argument arrays.

  The first transform's result array is `relu (layer …)` of what it is entered with, and it is entered with the neighbour
  sums of the input features, the input features, and the first layer's weights and bias: that is `hidden`. The second
  transform's result array is `layer …` of what it is entered with: the neighbour sums of `hidden` along the same edges,
  `hidden`, and the second layer's weights and bias: that is `network`. The bias reaches each transform recast as one
  row; read back as a vector it is the bias.
-/
import proofs.«131543_j86672440033638_1_alg».proof.Proof.KernelRun
import proofs.«131543_j86672440033638_1_alg».proof.Proof.Entry
import proofs.«131543_j86672440033638_1_alg».proof.Proof.First
import proofs.«131543_j86672440033638_1_alg».proof.Proof.Second
import proofs.«131543_j86672440033638_1_alg».proof.Proof.Spec

set_option maxRecDepth 16384

noncomputable section

namespace Cert.GraphConv.KernelValue

open Cert.KernelIdeal Cert.KernelIdeal.Gen
open Idealize.ShloMosaic Idealize.ShloMosaic.TcCoe Idealize.ShloMosaic.ValueIdx Idealize.SL.Sem
open Cert.GraphConv

variable (m : (ℓ : Loc nD τ sig) → Buf (Elt Ideal) ℓ) (ρ : Dev nD → PrngReg)

/-- A vector recast as one row and read back along that row is the vector. -/
theorem rowOf_recast (x : (⟨S48, .f32⟩ : BufTy).Contents (Elt Ideal)) :
    rowOf (shapeCast _ x shapeCasts_S48_S1x48) = x := by
  funext j
  obtain ⟨q, rfl⟩ : ∃ q : Fin 48, j = ix1 q := ⟨j 0, eq_ix1 j⟩
  exact shapeCast_apply x shapeCasts_S48_S1x48 (ix2 (0 : Fin 1) q) (ix1 q) (by
    rw [Shape.rowMajor_val_two, Shape.rowMajor_val_one]; show q.val = 0 * 48 + q.val; omega)

/-- The first transform's result array, as the second transform finds it, is `hidden` of the arguments. -/
theorem hidden_eq (c : Dev nD) :
    W2 m ρ c (Proc.devRef .tc main_v15)
      = hidden (m ((c : Thread nD τ).loc main_arg0)) (m ((c : Thread nD τ).loc main_arg1)) (m ((c : Thread nD τ).loc main_arg2))
          (m ((c : Thread nD τ).loc main_arg3)) (m ((c : Thread nD τ).loc main_arg4)) := by
  rw [KernelRun.W2_hidden, First.final (V1 m ρ) c]
  unfold First.G
  rw [Entry.first_sums, Entry.first_feats, Entry.first_w, Entry.first_w', Entry.first_bias, rowOf_recast, sumsK_eq_sumsR]
  rfl

/-- The result array at the last boundary is `network` of the arguments. -/
theorem network_eq (c : Dev nD) :
    W4 m ρ c (Proc.devRef .tc main_v27)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [KernelRun.W4_result, Second.final (V3 m ρ) c]
  unfold Second.G
  rw [Entry.second_sums, Entry.second_feats, Entry.second_w, Entry.second_w', Entry.second_bias, rowOf_recast, hidden_eq,
    sumsK_eq_sumsR]
  rfl

end Cert.GraphConv.KernelValue

end
-- ==== Proof.lean ====
/-
  A two-layer graph convolution over 100000 nodes with 48 features and 1600000 edges: a tiled kernel against its plain
  reference, equal over the extended reals.

  Each layer forms, for every node, the sum of the feature rows of the sources of the edges that end at it (a gather
  followed by a scatter-add into zeros), and then the dense transform `A·W + X·W' + b` of those sums `A` and the nodes'
  own features `X`; the first layer ends with the maximum with zero and feeds the second. The reference computes each
  dense transform on whole arrays with two matrix products on the host. The kernel keeps the gather and the scatter-add
  on the host, spelt exactly as the reference spells them, and computes each dense transform in 20 blocks of 5000 rows,
  each block by two matrix products into a zero accumulator.

  Why the two are equal. At the ideal values a matrix product that contracts one axis is the plain sum over that axis
  of the products, with or without a zero accumulator, so both programs compute entry (r, c) of a transform as
  `Σ_k A[r,k]·W[k,c] + Σ_k X[r,k]·W'[k,c] + b[c]`; row r of the result depends on row r of `A` and `X` only, so
  computing it block by block changes nothing, and the 20 blocks cover every row. The neighbour sums are the same
  function of the same operands in both programs and are never opened. No step distributes a product over a sum or
  cancels anything, so the equality holds at the infinities too and the finiteness of the inputs is not used.

  The kernel's rewrite to ideal values changed no operation, so that conjunct asks nothing. The three frame conjuncts
  are the generated frames of the two kernel programs and the reference's generated run with its result dropped.
-/
import proofs.«131543_j86672440033638_1_alg».proof.Defs
import proofs.«131543_j86672440033638_1_alg».proof.Proof.Gen.Kernel
import proofs.«131543_j86672440033638_1_alg».proof.Proof.Gen.Kernel.Frame
import proofs.«131543_j86672440033638_1_alg».proof.Proof.Gen.KernelIdeal
import proofs.«131543_j86672440033638_1_alg».proof.Proof.Gen.KernelIdeal.Frame
import proofs.«131543_j86672440033638_1_alg».proof.Proof.Gen.ReferenceIdeal
import proofs.«131543_j86672440033638_1_alg».proof.Proof.Gen.ReferenceIdeal.Run
import proofs.«131543_j86672440033638_1_alg».proof.Proof.Gen.ReferenceIdeal.Read
import proofs.«131543_j86672440033638_1_alg».proof.Proof.Gen.Pre_finite_inputs
import proofs.«131543_j86672440033638_1_alg».proof.Proof.KernelRun
import proofs.«131543_j86672440033638_1_alg».proof.Proof.KernelValue
import proofs.«131543_j86672440033638_1_alg».proof.Proof.Spec
import Idealize.ShloMosaic.Adequacy
import Idealize.ShloMosaic.Init

noncomputable section

namespace Cert.Proof

open Idealize.ShloMosaic Idealize.ShloMosaic.TcCoe Idealize.SL.Sem Cert.GraphConv

/-- The kernel as printed runs and leaves its arguments as launched. -/
theorem frame_kernel : Cert.frame_Kernel := fun m ρ _ => Cert.Kernel.Gen.frame m ρ

/-- So does the kernel read at the ideal values. -/
theorem frame_ideal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at `network` of the arguments. -/
theorem algebraic : Cert.algebraic_KernelIdeal_ReferenceIdeal := by
  intro m ρ m' ρ' _ hagree
  refine ⟨fun c => network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (KernelValue.network_eq m ρ c), (h c).2⟩) (KernelRun.run_result m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v36_eq, ref_network, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
